-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 86
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x64, .f32⟩
  | .hbm, ⟨115, _⟩ => ⟨S850000x1, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's whole run, with every buffer named at the end.

  @main is seven segments: three stretches of host operations, the first matrix-product region, a stretch, the second
  region, a last stretch.  The buffer contents at each boundary are a fold through the segments from the launch memory;
  the launch over those segments ends with every unscoped buffer of every core at the last fold.  The frame keeps only
  the argument arrays of that statement; here it is kept whole, so that the result buffer can be read off the fold.
-/
import proofs.«155800_j46308337386171_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and on every core every unscoped buffer ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The same run read at the result and at the arguments: the result buffer at the last fold, the arguments as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_all m ρ)

end Cert.KernelIdeal.Whole

end
-- ==== Proof.GraphConv.lean ====
/-
  Two layers of normalised graph convolution, written once as whole-array functions.

  The edge list e : i32[2, 800000] gives E = 800000 directed edges; a self loop is appended for each of the N = 50000
  nodes, so the source and target vectors s, d have E + N entries.  The degree of a node counts the entries of d equal
  to it; the edge weight is norm k = deg(s k)^(-1/2) · deg(d k)^(-1/2) (0 where a degree is 0).  One layer maps a node
  table h : [N, C] and a bias b : [C] to  out[v, c] = b c + Σ_{k : d k = v} h[s k, c] · norm k.  The network is
  layer2 (relu (layer1 (x · W1))) · W2 with the same s, d and norm in both layers.
-/
import proofs.«155800_j46308337386171_1_alg».proof.Proof.Gen.KernelIdeal
import proofs.«155800_j46308337386171_1_alg».proof.Proof.Gen.ReferenceIdeal

noncomputable section

namespace Cert.GraphConv

open Idealize.ShloMosaic Cert.KernelIdeal Cert.KernelIdeal.Facts₀

variable {F : FTy → Type} [FloatOps F]

/-- A vector of E edge endpoints followed by the node numbers 0 … N-1 (the self loops). -/
def withLoops (a : (⟨S800000, .i32⟩ : BufTy).Contents (Elt F)) : (⟨S850000, .i32⟩ : BufTy).Contents (Elt F) :=
  concatenate S850000 0 [⟨S800000, a⟩, ⟨S50000, (iotaInDim S50000 32 0 : (⟨S50000, .i32⟩ : BufTy).Contents (Elt F))⟩] concatenates_S800000_S50000_S850000_d0

/-- Row 0 of the edge list (the sources) with the self loops. -/
def srcIdx (e : (⟨S2x800000, .i32⟩ : BufTy).Contents (Elt F)) : (⟨S850000, .i32⟩ : BufTy).Contents (Elt F) :=
  withLoops (shapeCast S800000 (extractStridedSlice S1x800000 ![0, 0] e slices_S2x800000_S1x800000_0_0) shapeCasts_S1x800000_S800000)

/-- Row 1 of the edge list (the targets) with the self loops. -/
def dstIdx (e : (⟨S2x800000, .i32⟩ : BufTy).Contents (Elt F)) : (⟨S850000, .i32⟩ : BufTy).Contents (Elt F) :=
  withLoops (shapeCast S800000 (extractStridedSlice S1x800000 ![1, 0] e slices_S2x800000_S1x800000_1_0) shapeCasts_S1x800000_S800000)

/-- An index vector as a column of gather start indices, a negative entry counted from the end (v < 0 ↦ v + N). -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32 : (⟨S_, .i32⟩ : BufTy).Contents (Elt F))))
      (addi v (broadcastInDim S850000 ![] bcast_S_S850000 (constantI S_ 32 50000#32 : (⟨S_, .i32⟩ : BufTy).Contents (Elt F)))) v)

/-- The degree of every node: a 1 added at d k for every k. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)))
    (broadcastInDim S850000x1 ![0] bcast_S850000_S850000x1_0 d)
    (broadcastInDim S850000 ![] bcast_S_S850000 (constant S_ .f32 0x3F800000#32 : (⟨S_, .f32⟩ : BufTy).Contents (Elt F)))

/-- The scalar 0. -/
def zeroScalar : (⟨S_, .f32⟩ : BufTy).Contents (Elt F) := constant S_ .f32 0x00000000#32

/-- Which nodes have a positive degree. -/
def positive (g : (⟨S50000, .f32⟩ : BufTy).Contents (Elt F)) : (⟨S50000, .i1⟩ : BufTy).Contents (Elt F) :=
  cmpf .ogt g (broadcastInDim S50000 ![] bcast_S_S50000 (constant S_ .f32 0x00000000#32 : (⟨S_, .f32⟩ : BufTy).Contents (Elt F)))

/-- A per-node value where the mask holds, the scalar z elsewhere. -/
def orElse (mask : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select mask r (broadcastInDim S50000 ![] bcast_S_S50000 z)

/-- deg^(-1/2) where the degree is positive, 0 elsewhere. -/
def invSqrtOf (g : (⟨S50000, .f32⟩ : BufTy).Contents (Elt F)) : (⟨S50000, .f32⟩ : BufTy).Contents (Elt F) :=
  orElse (positive g) (Host.rsqrt g) zeroScalar

/-- The edge weights from a table t of per-node factors: t[s k] · t[d k]. -/
def edgeWeight (t : (⟨S50000, .f32⟩ : BufTy).Contents (Elt F)) (s d : (⟨S850000, .i32⟩ : BufTy).Contents (Elt F)) :
    (⟨S850000, .f32⟩ : BufTy).Contents (Elt F) :=
  mulf (Host.gather gather_S50000_S850000x1_S850000_n_0_n_n_0_1_1 t (wrapIdx s))
    (Host.gather gather_S50000_S850000x1_S850000_n_0_n_n_0_1_1 t (wrapIdx d))

/-- The symmetric normalisation of the graph with targets d and sources s. -/
def edgeNorm (s d : (⟨S850000, .i32⟩ : BufTy).Contents (Elt F)) : (⟨S850000, .f32⟩ : BufTy).Contents (Elt F) :=
  edgeWeight (invSqrtOf (degree d)) s d

/-- One aggregation over 128 channels: out[v, c] = b c + Σ_{k : d k = v} h[s k, c] · w k. -/
def aggregate128 (h : (⟨S50000x128, .f32⟩ : BufTy).Contents (Elt F)) (s d : (⟨S850000, .i32⟩ : BufTy).Contents (Elt F))
    (w : (⟨S850000, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32 : (⟨S_, .f32⟩ : BufTy).Contents (Elt F)))
      (broadcastInDim S850000x1 ![0] bcast_S850000_S850000x1_0 d)
      (mulf (Host.gather gather_S50000x128_S850000x1_S850000x128_1_0_n_n_0_1_1128 h (wrapIdx s))
        (broadcastInDim S850000x128 ![0, 1] bcast_S850000x1_S850000x128_0_1 (broadcastInDim S850000x1 ![0] bcast_S850000_S850000x1_0 w))))
    (broadcastInDim S50000x128 ![0, 1] bcast_S1x128_S50000x128_0_1 (broadcastInDim S1x128 ![1] bcast_S128_S1x128_1 b))

/-- The same over 64 channels. -/
def aggregate64 (h : (⟨S50000x64, .f32⟩ : BufTy).Contents (Elt F)) (s d : (⟨S850000, .i32⟩ : BufTy).Contents (Elt F))
    (w : (⟨S850000, .f32⟩ : BufTy).Contents (Elt F)) (b : (⟨S64, .f32⟩ : BufTy).Contents (Elt F)) :
    (⟨S50000x64, .f32⟩ : BufTy).Contents (Elt F) :=
  addf
    (Host.scatterAdd scatter_S50000x64_S850000x1_S850000x64_1_0_0_1
      (broadcastInDim S50000x64 ![] bcast_S_S50000x64 (constant S_ .f32 0x00000000#32 : (⟨S_, .f32⟩ : BufTy).Contents (Elt F)))
      (broadcastInDim S850000x1 ![0] bcast_S850000_S850000x1_0 d)
      (mulf (Host.gather gather_S50000x64_S850000x1_S850000x64_1_0_n_n_0_1_164 h (wrapIdx s))
        (broadcastInDim S850000x64 ![0, 1] bcast_S850000x1_S850000x64_0_1 (broadcastInDim S850000x1 ![0] bcast_S850000_S850000x1_0 w))))
    (broadcastInDim S50000x64 ![0, 1] bcast_S1x64_S50000x64_0_1 (broadcastInDim S1x64 ![1] bcast_S64_S1x64_1 b))

/-- max(h, 0), entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32 : (⟨S_, .f32⟩ : BufTy).Contents (Elt F)))

/-- x · W1 as the host computes it. -/
def proj1 (x : (⟨S50000x128, .f32⟩ : BufTy).Contents (Elt F)) (w : (⟨S128x128, .f32⟩ : BufTy).Contents (Elt F)) :
    (⟨S50000x128, .f32⟩ : BufTy).Contents (Elt F) :=
  Host.dotGeneral Cert.ReferenceIdeal.dot_S50000x128_S128x128_S50000x128_1_0_0_1_n_n none x w

/-- relu(h) · W2 as the host computes it. -/
def proj2 (h : (⟨S50000x128, .f32⟩ : BufTy).Contents (Elt F)) (w : (⟨S128x64, .f32⟩ : BufTy).Contents (Elt F)) :
    (⟨S50000x64, .f32⟩ : BufTy).Contents (Elt F) :=
  Host.dotGeneral Cert.ReferenceIdeal.dot_S50000x128_S128x64_S50000x64_1_0_0_1_n_n none (relu h) w

/-- The hidden layer: the first aggregation of x · W1. -/
def hidden (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F)) :
    (⟨S50000x128, .f32⟩ : BufTy).Contents (Elt F) :=
  aggregate128 (proj1 x w1) (srcIdx e) (dstIdx e) (edgeNorm (srcIdx e) (dstIdx e)) b1

/-- The network's output. -/
def network (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  aggregate64 (proj2 (hidden x e w1 b1) w2) (srcIdx e) (dstIdx e) (edgeNorm (srcIdx e) (dstIdx e)) b2

end Cert.GraphConv

end
-- ==== Proof.HostLines.lean ====
/-
  The host lines of the idealized kernel's @main, each read from contents one does not look inside.

  @main's host operations come in five stretches.  From any buffer contents V, a stretch leaves in the buffers it
  writes the graph-convolution functions of what V holds in the buffers it reads, and leaves every other buffer as
  it was:  the first stretch builds the source and target vectors with their self loops, the degrees' positivity mask
  and their reciprocal square roots; the second selects deg^(-1/2) or 0; the third forms the edge weights; the fourth
  and fifth aggregate a node table over the edges and add the bias.
-/
import proofs.«155800_j46308337386171_1_alg».proof.Proof.Gen.KernelIdeal.Launch
import proofs.«155800_j46308337386171_1_alg».proof.Proof.GraphConv
import Idealize.ShloMosaic.Lib.StableHlo.Run

set_option maxRecDepth 16384

noncomputable section

namespace Cert.KernelIdeal.Lines

open Idealize.ShloMosaic Idealize.ShloMosaic.TcCoe Idealize.ShloMosaic.StableHlo
open Cert.KernelIdeal Cert.KernelIdeal.Facts₀ Cert.KernelIdeal.Gen Cert.GraphConv

variable {F : FTy → Type} [FloatOps F] (V : Valuation τ sig (Elt F))

/-- A buffer no operation of a stretch writes keeps its contents: the stretch's written references are told apart from
    the given one, operation by operation. -/
macro "untouched" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## The first stretch: endpoints, degrees -/

theorem src_first : after (hostOps0 (F := F)) V (Proc.devRef .tc main_v5) = srcIdx (V (Proc.devRef .tc main_arg1)) := by
  after_results; rfl

theorem dst_first : after (hostOps0 (F := F)) V (Proc.devRef .tc main_v6) = dstIdx (V (Proc.devRef .tc main_arg1)) := by
  after_results; rfl

theorem mask_first : after (hostOps0 (F := F)) V (Proc.devRef .tc main_v12)
    = positive (degree (dstIdx (V (Proc.devRef .tc main_arg1)))) := by
  after_results; rfl

theorem rsqrt_first : after (hostOps0 (F := F)) V (Proc.devRef .tc main_v13)
    = Host.rsqrt (degree (dstIdx (V (Proc.devRef .tc main_arg1)))) := by
  after_results; rfl

theorem zero_first : after (hostOps0 (F := F)) V (Proc.devRef .tc main_cst_2) = zeroScalar := by
  after_results <;> rfl

/-! ## The second stretch: deg^(-1/2) where the degree is positive -/

theorem inv_second : after (hostOps0_1 (F := F)) V (Proc.devRef .tc main_v14)
    = orElse (V (Proc.devRef .tc main_v12)) (V (Proc.devRef .tc main_v13)) (V (Proc.devRef .tc main_cst_2)) := by
  after_results; rfl

/-- The two stretches together: the per-node factor of the normalisation. -/
theorem inv_first_second : after (hostOps0_1 (F := F)) (after (hostOps0 (F := F)) V) (Proc.devRef .tc main_v14)
    = invSqrtOf (degree (dstIdx (V (Proc.devRef .tc main_arg1)))) := by
  rw [inv_second, mask_first, rsqrt_first, zero_first]; rfl

/-! ## The third stretch: the edge weights -/

set_option maxHeartbeats 4000000 in
theorem weight_third : after (hostOps0_2 (F := F)) V (Proc.devRef .tc main_v29)
    = edgeWeight (V (Proc.devRef .tc main_v14)) (V (Proc.devRef .tc main_v5)) (V (Proc.devRef .tc main_v6)) := by
  after_results_simp <;> rfl

/-! ## The fourth and fifth stretches: the two aggregations -/

set_option maxHeartbeats 4000000 in
theorem agg_fourth : after (hostOps1 (F := F)) V (Proc.devRef .tc main_v46)
    = aggregate128 (V (Proc.devRef .tc main_v30)) (V (Proc.devRef .tc main_v5)) (V (Proc.devRef .tc main_v6))
        (V (Proc.devRef .tc main_v29)) (V (Proc.devRef .tc main_arg3)) := by
  after_results_simp <;> rfl

set_option maxHeartbeats 4000000 in
theorem agg_fifth : after (hostOps2 (F := F)) V (Proc.devRef .tc main_v63)
    = aggregate64 (V (Proc.devRef .tc main_v47)) (V (Proc.devRef .tc main_v5)) (V (Proc.devRef .tc main_v6))
        (V (Proc.devRef .tc main_v29)) (V (Proc.devRef .tc main_arg5)) := by
  after_results_simp <;> rfl

/-! ## What each stretch leaves alone -/

theorem keep_first_arg0 : after (hostOps0 (F := F)) V (Proc.devRef .tc main_arg0) = V (Proc.devRef .tc main_arg0) := by untouched
theorem keep_first_arg2 : after (hostOps0 (F := F)) V (Proc.devRef .tc main_arg2) = V (Proc.devRef .tc main_arg2) := by untouched
theorem keep_first_arg3 : after (hostOps0 (F := F)) V (Proc.devRef .tc main_arg3) = V (Proc.devRef .tc main_arg3) := by untouched
theorem keep_first_arg4 : after (hostOps0 (F := F)) V (Proc.devRef .tc main_arg4) = V (Proc.devRef .tc main_arg4) := by untouched
theorem keep_first_arg5 : after (hostOps0 (F := F)) V (Proc.devRef .tc main_arg5) = V (Proc.devRef .tc main_arg5) := by untouched
theorem keep_second_v5 : after (hostOps0_1 (F := F)) V (Proc.devRef .tc main_v5) = V (Proc.devRef .tc main_v5) := by untouched
theorem keep_second_v6 : after (hostOps0_1 (F := F)) V (Proc.devRef .tc main_v6) = V (Proc.devRef .tc main_v6) := by untouched
theorem keep_second_arg0 : after (hostOps0_1 (F := F)) V (Proc.devRef .tc main_arg0) = V (Proc.devRef .tc main_arg0) := by untouched
theorem keep_second_arg2 : after (hostOps0_1 (F := F)) V (Proc.devRef .tc main_arg2) = V (Proc.devRef .tc main_arg2) := by untouched
theorem keep_second_arg3 : after (hostOps0_1 (F := F)) V (Proc.devRef .tc main_arg3) = V (Proc.devRef .tc main_arg3) := by untouched
theorem keep_second_arg4 : after (hostOps0_1 (F := F)) V (Proc.devRef .tc main_arg4) = V (Proc.devRef .tc main_arg4) := by untouched
theorem keep_second_arg5 : after (hostOps0_1 (F := F)) V (Proc.devRef .tc main_arg5) = V (Proc.devRef .tc main_arg5) := by untouched
theorem keep_third_v5 : after (hostOps0_2 (F := F)) V (Proc.devRef .tc main_v5) = V (Proc.devRef .tc main_v5) := by untouched
theorem keep_third_v6 : after (hostOps0_2 (F := F)) V (Proc.devRef .tc main_v6) = V (Proc.devRef .tc main_v6) := by untouched
theorem keep_third_arg0 : after (hostOps0_2 (F := F)) V (Proc.devRef .tc main_arg0) = V (Proc.devRef .tc main_arg0) := by untouched
theorem keep_third_arg2 : after (hostOps0_2 (F := F)) V (Proc.devRef .tc main_arg2) = V (Proc.devRef .tc main_arg2) := by untouched
theorem keep_third_arg3 : after (hostOps0_2 (F := F)) V (Proc.devRef .tc main_arg3) = V (Proc.devRef .tc main_arg3) := by untouched
theorem keep_third_arg4 : after (hostOps0_2 (F := F)) V (Proc.devRef .tc main_arg4) = V (Proc.devRef .tc main_arg4) := by untouched
theorem keep_third_arg5 : after (hostOps0_2 (F := F)) V (Proc.devRef .tc main_arg5) = V (Proc.devRef .tc main_arg5) := by untouched
theorem keep_fourth_v5 : after (hostOps1 (F := F)) V (Proc.devRef .tc main_v5) = V (Proc.devRef .tc main_v5) := by untouched
theorem keep_fourth_v6 : after (hostOps1 (F := F)) V (Proc.devRef .tc main_v6) = V (Proc.devRef .tc main_v6) := by untouched
theorem keep_fourth_v29 : after (hostOps1 (F := F)) V (Proc.devRef .tc main_v29) = V (Proc.devRef .tc main_v29) := by untouched
theorem keep_fourth_arg4 : after (hostOps1 (F := F)) V (Proc.devRef .tc main_arg4) = V (Proc.devRef .tc main_arg4) := by untouched
theorem keep_fourth_arg5 : after (hostOps1 (F := F)) V (Proc.devRef .tc main_arg5) = V (Proc.devRef .tc main_arg5) := by untouched

end Cert.KernelIdeal.Lines

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.MatmulBlocks.lean ====
/-
  The two matrix-product regions, each read as ONE whole-array product.

  A region tiles the rows of its left operand into ten blocks of 5000; at grid point t the body multiplies block t
  (through relu, in the second region) by the whole weight matrix into a zero accumulator and writes block t of the output.
  Entry (p, q) of that block is Σ_i x[5000 t + p, i] · w[i, q], which is entry (5000 t + p, q) of the host's dot_general of
  the whole arrays; the ten blocks cover the output, so the output array after the region IS that product.
-/
import proofs.«155800_j46308337386171_1_alg».proof.Proof.Gen.KernelIdeal.Frame
import proofs.«155800_j46308337386171_1_alg».proof.Proof.GraphConv
import proofs.«155800_j46308337386171_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen Cert.GraphConv
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0: x · W1, ten blocks of 5000 rows -/

/-- The body's payload at entry (p, q) of a block: the textbook sum over the 128 contracted columns
    (rounding to bf16 is the identity on the extended reals). -/
theorem pay0_apply (x0 : Vec Ideal S5000x128 .f32) (x1 : Vec Ideal S128x128 .f32) (p : Fin 5000) (q : Fin 128) :
    k0_pay1 x0 x1 (ix2 p q) = ∑ i : Fin 128, x0 (ix2 p i) * x1 (ix2 i q) := by
  unfold k0_pay1
  refine (Cert.LibDot.matmul_zero_apply dot_S5000x128_S128x128_S5000x128_1_0_0_1_n_n rfl rfl (fun _ _ => rfl) (fun _ _ => rfl)
    (fun _ _ => rfl) (fun _ _ => rfl) none _ _ p q).trans ?_
  rfl

/-- The host's product at entry (r, q) of the whole array: the same sum over the whole operands. -/
theorem proj1_apply (x : (⟨S50000x128, .f32⟩ : BufTy).Contents (Elt Ideal)) (w : (⟨S128x128, .f32⟩ : BufTy).Contents (Elt Ideal))
    (r : Fin 50000) (q : Fin 128) :
    proj1 x w (ix2 r q) = ∑ i : Fin 128, x (ix2 r i) * w (ix2 i q) := by
  unfold proj1
  refine (Cert.LibDot.dotGeneral_apply Cert.ReferenceIdeal.dot_S50000x128_S128x128_S50000x128_1_0_0_1_n_n rfl rfl (fun _ _ => rfl) (fun _ _ => rfl)
    (fun _ _ => rfl) (fun _ _ => rfl) none _ _ _ r q).trans ?_
  rfl

/-- The printed index maps over the grid: point t's block of the row-tiled windows is block t, the weight's block is the
    whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed0_eq (c : Dev nD) (t : Fin cfg0.N) :
    (dat0 V c).flushed 2 t = ((cfg0.win 2).blk t).view.read (Elt Ideal) (proj1 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  have hN : t.val < 10 := lt_of_lt_of_eq t.isLt N_0
  funext j
  obtain ⟨p, q, rfl⟩ : ∃ (p : Fin 5000) (q : Fin 128), j = ix2 p q := ⟨j 0, j 1, eq_ix2 j⟩
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (iblk0 V c 0 t) (iblk0 V c 1 t) (ix2 p q) = proj1 (V c main_arg0) (V c main_arg2) (((cfg0.win 2).blk t).view.emb (ix2 p q))
  rw [hemb]
  refine (pay0_apply (iblk0 V c 0 t) (iblk0 V c 1 t) p q).trans ?_
  refine Eq.trans ?_ (proj1_apply (V c main_arg0) (V c main_arg2) ⟨t.val * 5000 + p.val, by omega⟩ q).symm
  refine Finset.sum_congr rfl fun i _ => ?_
  have hx : iblk0 V c 0 t (ix2 p i) = V c main_arg0 (ix2 (⟨t.val * 5000 + p.val, by omega⟩ : Fin 50000) i) := by
    show V c main_arg0 (((cfg0.win 0).blk t).view.emb (ix2 p i)) = _
    refine congrArg (V c main_arg0) ?_
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * i.val = i.val; rw [e1]; omega
  have hw : iblk0 V c 1 t (ix2 i q) = V c main_arg2 (ix2 i q) := by
    show V c main_arg2 (((cfg0.win 1).blk t).view.emb (ix2 i q)) = _
    refine congrArg (V c main_arg2) ?_
    funext a; apply Fin.ext
    match a with
    | ⟨0, _⟩ => show win0_1.index t (0 : Fin 2) * 128 + 1 * i.val = i.val; rw [e2]; omega
    | ⟨1, _⟩ => show win0_1.index t (1 : Fin 2) * 128 + 1 * q.val = q.val; rw [e3]; omega
  rw [hx, hw]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000: the ten blocks cover the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The output array after the region: the whole product of the arrays as the region finds them. -/
theorem final0 (c : Dev nD) : (dat0 V c).arrAt 2 cfg0.N = proj1 (V c main_arg0) (V c main_arg2) :=
  (dat0 V c).arrAt_eq_of_cover 2 (proj1 (V c main_arg0) (V c main_arg2)) (fun t _ => flushed0_eq V c t) cover0

/-! ## Region 1: relu(h) · W2, ten blocks of 5000 rows -/

/-- The body's payload at entry (p, q) of a block: the textbook sum over the 128 contracted columns, the left factor clipped at 0
    (rounding to bf16 is the identity on the extended reals). -/
theorem pay1_apply (x0 : Vec Ideal S5000x128 .f32) (x1 : Vec Ideal S128x64 .f32) (p : Fin 5000) (q : Fin 64) :
    k1_pay1 x0 x1 (ix2 p q) = ∑ i : Fin 128, max (x0 (ix2 p i)) (Ideal.ofBits .f32 0x00000000#32) * x1 (ix2 i q) := by
  unfold k1_pay1
  refine (Cert.LibDot.matmul_zero_apply dot_S5000x128_S128x64_S5000x64_1_0_0_1_n_n rfl rfl (fun _ _ => rfl) (fun _ _ => rfl)
    (fun _ _ => rfl) (fun _ _ => rfl) none _ _ p q).trans ?_
  simp only [shapeCast_self]
  rfl

/-- The host's product at entry (r, q) of the whole array: the same sum over the whole operands. -/
theorem proj2_apply (x : (⟨S50000x128, .f32⟩ : BufTy).Contents (Elt Ideal)) (w : (⟨S128x64, .f32⟩ : BufTy).Contents (Elt Ideal))
    (r : Fin 50000) (q : Fin 64) :
    proj2 x w (ix2 r q) = ∑ i : Fin 128, max (x (ix2 r i)) (Ideal.ofBits .f32 0x00000000#32) * w (ix2 i q) := by
  unfold proj2
  refine (Cert.LibDot.dotGeneral_apply Cert.ReferenceIdeal.dot_S50000x128_S128x64_S50000x64_1_0_0_1_n_n rfl rfl (fun _ _ => rfl) (fun _ _ => rfl)
    (fun _ _ => rfl) (fun _ _ => rfl) none _ _ _ r q).trans ?_
  rfl

/-- The printed index maps over the grid: point t's block of the row-tiled windows is block t, the weight's block is the
    whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays as the region finds them. -/
theorem flushed1_eq (c : Dev nD) (t : Fin cfg1.N) :
    (dat1 V c).flushed 2 t = ((cfg1.win 2).blk t).view.read (Elt Ideal) (proj2 (V c main_v46) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts1 t
  have hN : t.val < 10 := lt_of_lt_of_eq t.isLt N_1
  funext j
  obtain ⟨p, q, rfl⟩ : ∃ (p : Fin 5000) (q : Fin 64), j = ix2 p q := ⟨j 0, j 1, eq_ix2 j⟩
  have hemb : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 64 + 1 * q.val = q.val; rw [e5]; omega
  show k1_pay1 (iblk1 V c 0 t) (iblk1 V c 1 t) (ix2 p q) = proj2 (V c main_v46) (V c main_arg4) (((cfg1.win 2).blk t).view.emb (ix2 p q))
  rw [hemb]
  refine (pay1_apply (iblk1 V c 0 t) (iblk1 V c 1 t) p q).trans ?_
  refine Eq.trans ?_ (proj2_apply (V c main_v46) (V c main_arg4) ⟨t.val * 5000 + p.val, by omega⟩ q).symm
  refine Finset.sum_congr rfl fun i _ => ?_
  have hx : iblk1 V c 0 t (ix2 p i) = V c main_v46 (ix2 (⟨t.val * 5000 + p.val, by omega⟩ : Fin 50000) i) := by
    show V c main_v46 (((cfg1.win 0).blk t).view.emb (ix2 p i)) = _
    refine congrArg (V c main_v46) ?_
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * i.val = i.val; rw [e1]; omega
  have hw : iblk1 V c 1 t (ix2 i q) = V c main_arg4 (ix2 i q) := by
    show V c main_arg4 (((cfg1.win 1).blk t).view.emb (ix2 i q)) = _
    refine congrArg (V c main_arg4) ?_
    funext a; apply Fin.ext
    match a with
    | ⟨0, _⟩ => show win1_1.index t (0 : Fin 2) * 128 + 1 * i.val = i.val; rw [e2]; omega
    | ⟨1, _⟩ => show win1_1.index t (1 : Fin 2) * 64 + 1 * q.val = q.val; rw [e3]; omega
  rw [hx, hw]

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row r lies in the block of point r / 5000: the ten blocks cover the array. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨e0, e1, e2, e3, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- The output array after the region: the whole product of the arrays as the region finds them. -/
theorem final1 (c : Dev nD) : (dat1 V c).arrAt 2 cfg1.N = proj2 (V c main_v46) (V c main_arg4) :=
  (dat1 V c).arrAt_eq_of_cover 2 (proj2 (V c main_v46) (V c main_arg4)) (fun t _ => flushed1_eq V c t) cover1

end Cert.KernelIdeal.Blocks

end
-- ==== Proof.KernelValue.lean ====
/-
  The result buffer of the idealized kernel's run, as the graph-convolution network of the arguments.

  The buffer contents at the seven boundaries of @main are a fold from the launch memory.  Walking the fold forward:
  after the first three stretches the source and target vectors, the edge weights and the arguments are in place; the
  first region leaves x · W1 in its output array; the fourth stretch aggregates it into the hidden layer; the second
  region leaves relu(hidden) · W2; the last stretch aggregates that into the result.  Every other buffer a segment
  passes over is unchanged, so each value is carried to where it is read.
-/
import proofs.«155800_j46308337386171_1_alg».proof.Proof.Gen.KernelIdeal.Frame
import proofs.«155800_j46308337386171_1_alg».proof.Proof.HostLines
import proofs.«155800_j46308337386171_1_alg».proof.Proof.MatmulBlocks

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.GraphConv Cert.KernelIdeal.Lines Cert.KernelIdeal.Blocks

variable (m : (ℓ : Loc nD τ sig) → Buf (Elt Ideal) ℓ) (ρ : Dev nD → PrngReg) (c : Dev nD)

/-! ## At the first region's entry -/

theorem entry0_arg0 : W3 m ρ c (Proc.devRef .tc main_arg0) = (m ((c : Thread nD τ).loc main_arg0)) :=
  (keep_third_arg0 (W2 m ρ c)).trans ((keep_second_arg0 (W1 m ρ c)).trans ((keep_first_arg0 (W0 m ρ c)).trans rfl))
theorem entry0_arg2 : W3 m ρ c (Proc.devRef .tc main_arg2) = (m ((c : Thread nD τ).loc main_arg2)) :=
  (keep_third_arg2 (W2 m ρ c)).trans ((keep_second_arg2 (W1 m ρ c)).trans ((keep_first_arg2 (W0 m ρ c)).trans rfl))
theorem entry0_arg3 : W3 m ρ c (Proc.devRef .tc main_arg3) = (m ((c : Thread nD τ).loc main_arg3)) :=
  (keep_third_arg3 (W2 m ρ c)).trans ((keep_second_arg3 (W1 m ρ c)).trans ((keep_first_arg3 (W0 m ρ c)).trans rfl))
theorem entry0_arg4 : W3 m ρ c (Proc.devRef .tc main_arg4) = (m ((c : Thread nD τ).loc main_arg4)) :=
  (keep_third_arg4 (W2 m ρ c)).trans ((keep_second_arg4 (W1 m ρ c)).trans ((keep_first_arg4 (W0 m ρ c)).trans rfl))
theorem entry0_arg5 : W3 m ρ c (Proc.devRef .tc main_arg5) = (m ((c : Thread nD τ).loc main_arg5)) :=
  (keep_third_arg5 (W2 m ρ c)).trans ((keep_second_arg5 (W1 m ρ c)).trans ((keep_first_arg5 (W0 m ρ c)).trans rfl))

theorem mid_src : W2 m ρ c (Proc.devRef .tc main_v5) = (srcIdx (m ((c : Thread nD τ).loc main_arg1))) :=
  (keep_second_v5 (W1 m ρ c)).trans ((src_first (W0 m ρ c)).trans rfl)
theorem mid_dst : W2 m ρ c (Proc.devRef .tc main_v6) = (dstIdx (m ((c : Thread nD τ).loc main_arg1))) :=
  (keep_second_v6 (W1 m ρ c)).trans ((dst_first (W0 m ρ c)).trans rfl)
theorem mid_inv : W2 m ρ c (Proc.devRef .tc main_v14) = invSqrtOf (degree (dstIdx (m ((c : Thread nD τ).loc main_arg1)))) :=
  (inv_first_second (W0 m ρ c)).trans rfl

theorem entry0_src : W3 m ρ c (Proc.devRef .tc main_v5) = (srcIdx (m ((c : Thread nD τ).loc main_arg1))) := (keep_third_v5 (W2 m ρ c)).trans (mid_src m ρ c)
theorem entry0_dst : W3 m ρ c (Proc.devRef .tc main_v6) = (dstIdx (m ((c : Thread nD τ).loc main_arg1))) := (keep_third_v6 (W2 m ρ c)).trans (mid_dst m ρ c)
theorem entry0_norm : W3 m ρ c (Proc.devRef .tc main_v29) = (edgeNorm (srcIdx (m ((c : Thread nD τ).loc main_arg1))) (dstIdx (m ((c : Thread nD τ).loc main_arg1)))) := by
  refine (weight_third (W2 m ρ c)).trans ?_
  rw [mid_inv, mid_src, mid_dst]; rfl

/-! ## At the first region's exit -/

theorem exit0_out : W4 m ρ c (Proc.devRef .tc main_v30) = proj1 (m ((c : Thread nD τ).loc main_arg0)) (m ((c : Thread nD τ).loc main_arg2)) :=
  (W4_arr m ρ c 2).trans ((final0 (V3 m ρ) c).trans (congrArg₂ proj1 (entry0_arg0 m ρ c) (entry0_arg2 m ρ c)))
theorem exit0_src : W4 m ρ c (Proc.devRef .tc main_v5) = (srcIdx (m ((c : Thread nD τ).loc main_arg1))) := (W4_of_ne m ρ c main_v5 (by decide)).trans (entry0_src m ρ c)
theorem exit0_dst : W4 m ρ c (Proc.devRef .tc main_v6) = (dstIdx (m ((c : Thread nD τ).loc main_arg1))) := (W4_of_ne m ρ c main_v6 (by decide)).trans (entry0_dst m ρ c)
theorem exit0_norm : W4 m ρ c (Proc.devRef .tc main_v29) = (edgeNorm (srcIdx (m ((c : Thread nD τ).loc main_arg1))) (dstIdx (m ((c : Thread nD τ).loc main_arg1)))) := (W4_of_ne m ρ c main_v29 (by decide)).trans (entry0_norm m ρ c)
theorem exit0_arg3 : W4 m ρ c (Proc.devRef .tc main_arg3) = (m ((c : Thread nD τ).loc main_arg3)) := (W4_of_ne m ρ c main_arg3 (by decide)).trans (entry0_arg3 m ρ c)
theorem exit0_arg4 : W4 m ρ c (Proc.devRef .tc main_arg4) = (m ((c : Thread nD τ).loc main_arg4)) := (W4_of_ne m ρ c main_arg4 (by decide)).trans (entry0_arg4 m ρ c)
theorem exit0_arg5 : W4 m ρ c (Proc.devRef .tc main_arg5) = (m ((c : Thread nD τ).loc main_arg5)) := (W4_of_ne m ρ c main_arg5 (by decide)).trans (entry0_arg5 m ρ c)

/-! ## At the second region's entry -/

theorem entry1_hidden : W5 m ρ c (Proc.devRef .tc main_v46) = (hidden (m ((c : Thread nD τ).loc main_arg0)) (m ((c : Thread nD τ).loc main_arg1)) (m ((c : Thread nD τ).loc main_arg2)) (m ((c : Thread nD τ).loc main_arg3))) := by
  refine (agg_fourth (W4 m ρ c)).trans ?_
  rw [exit0_out, exit0_src, exit0_dst, exit0_norm, exit0_arg3]; rfl
theorem entry1_src : W5 m ρ c (Proc.devRef .tc main_v5) = (srcIdx (m ((c : Thread nD τ).loc main_arg1))) := (keep_fourth_v5 (W4 m ρ c)).trans (exit0_src m ρ c)
theorem entry1_dst : W5 m ρ c (Proc.devRef .tc main_v6) = (dstIdx (m ((c : Thread nD τ).loc main_arg1))) := (keep_fourth_v6 (W4 m ρ c)).trans (exit0_dst m ρ c)
theorem entry1_norm : W5 m ρ c (Proc.devRef .tc main_v29) = (edgeNorm (srcIdx (m ((c : Thread nD τ).loc main_arg1))) (dstIdx (m ((c : Thread nD τ).loc main_arg1)))) := (keep_fourth_v29 (W4 m ρ c)).trans (exit0_norm m ρ c)
theorem entry1_arg4 : W5 m ρ c (Proc.devRef .tc main_arg4) = (m ((c : Thread nD τ).loc main_arg4)) := (keep_fourth_arg4 (W4 m ρ c)).trans (exit0_arg4 m ρ c)
theorem entry1_arg5 : W5 m ρ c (Proc.devRef .tc main_arg5) = (m ((c : Thread nD τ).loc main_arg5)) := (keep_fourth_arg5 (W4 m ρ c)).trans (exit0_arg5 m ρ c)

/-! ## At the second region's exit -/

theorem exit1_out : W6 m ρ c (Proc.devRef .tc main_v47) = proj2 (hidden (m ((c : Thread nD τ).loc main_arg0)) (m ((c : Thread nD τ).loc main_arg1)) (m ((c : Thread nD τ).loc main_arg2)) (m ((c : Thread nD τ).loc main_arg3))) (m ((c : Thread nD τ).loc main_arg4)) :=
  (W6_arr m ρ c 2).trans ((final1 (V5 m ρ) c).trans (congrArg₂ proj2 (entry1_hidden m ρ c) (entry1_arg4 m ρ c)))
theorem exit1_src : W6 m ρ c (Proc.devRef .tc main_v5) = (srcIdx (m ((c : Thread nD τ).loc main_arg1))) := (W6_of_ne m ρ c main_v5 (by decide)).trans (entry1_src m ρ c)
theorem exit1_dst : W6 m ρ c (Proc.devRef .tc main_v6) = (dstIdx (m ((c : Thread nD τ).loc main_arg1))) := (W6_of_ne m ρ c main_v6 (by decide)).trans (entry1_dst m ρ c)
theorem exit1_norm : W6 m ρ c (Proc.devRef .tc main_v29) = (edgeNorm (srcIdx (m ((c : Thread nD τ).loc main_arg1))) (dstIdx (m ((c : Thread nD τ).loc main_arg1)))) := (W6_of_ne m ρ c main_v29 (by decide)).trans (entry1_norm m ρ c)
theorem exit1_arg5 : W6 m ρ c (Proc.devRef .tc main_arg5) = (m ((c : Thread nD τ).loc main_arg5)) := (W6_of_ne m ρ c main_arg5 (by decide)).trans (entry1_arg5 m ρ c)

/-! ## The result -/

/-- After the last stretch the result buffer holds the network's output on the launch contents of the arguments. -/
theorem result : W7 m ρ c (Proc.devRef .tc main_v63) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg_fifth (W6 m ρ c)).trans ?_
  rw [exit1_out, exit1_src, exit1_dst, exit1_norm, exit1_arg5]; rfl

end Cert.KernelIdeal.Result

end
-- ==== Proof.ReferenceValue.lean ====
/-
  The reference's result term is the graph-convolution network of its arguments.

  The reference computes the network layer by layer on the host: the same endpoint vectors, degrees, edge weights,
  gathers and scatter-adds as the network's definition, the two products by dot_general, relu between them.  It rebuilds
  the endpoint vectors and the edge weights for the second layer from the same edge list; the two copies are one term.
-/
import proofs.«155800_j46308337386171_1_alg».proof.Proof.ReferenceRun
import proofs.«155800_j46308337386171_1_alg».proof.Proof.GraphConv

set_option maxRecDepth 16384

noncomputable section

namespace Cert.ReferenceIdeal.RefValue

open Idealize.ShloMosaic Idealize.ShloMosaic.TcCoe Idealize.SL.Sem
open Cert.ReferenceIdeal Cert.GraphConv

variable {F : FTy → Type} [FloatOps F]

set_option maxHeartbeats 4000000 in
/-- The composed term of the reference's operations, unfolded, is the network's definition, unfolded. -/
theorem result_eq (m : (ℓ : Loc nD τ sig) → Buf (Elt F) ℓ) (c : Dev nD) :
    Cert.ReferenceIdeal.ValueP.res_main_v90 (F := F) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

end Cert.ReferenceIdeal.RefValue

end
-- ==== Proof.lean ====
/-
  Two layers of normalised graph convolution: the Pallas program against the jnp reference, over the extended reals.

  Both programs compute  out = agg(relu(agg(x · W1) + b1) · W2) + b2  where agg sums, into each node, the rows of its
  in-neighbours (self loop included) weighted by deg^(-1/2) of both endpoints.  They differ in two places only.  The
  kernel forms each product x · W in a pallas region, ten row blocks of 5000 at a time, rounding the operands to bf16
  (the identity on the extended reals) and applying relu to the block it has just loaded; the reference calls
  dot_general on the whole arrays and relu on the host.  And the kernel computes the endpoint vectors and edge weights
  once, the reference once per layer.  A row of a product depends only on that row of the left operand, so the blocks
  of the region's output are the blocks of the whole product, and no algebraic law beyond that is needed: the claim
  holds for every input, finite or not.

  The modules: GraphConv states the network as whole-array functions; HostLines reads each stretch of the kernel's host
  operations as those functions; MatmulBlocks reads each region's output array as the whole product; KernelRun runs the
  kernel's @main to the fold of its segments and KernelValue walks that fold to the network of the arguments;
  ReferenceRun is the reference's run and ReferenceValue identifies its result term with the same network.
-/
import proofs.«155800_j46308337386171_1_alg».proof.Defs
import proofs.«155800_j46308337386171_1_alg».proof.Proof.Gen.Kernel
import proofs.«155800_j46308337386171_1_alg».proof.Proof.Gen.Kernel.Skeleton
import proofs.«155800_j46308337386171_1_alg».proof.Proof.Gen.Kernel.Launch
import proofs.«155800_j46308337386171_1_alg».proof.Proof.Gen.Kernel.Points
import proofs.«155800_j46308337386171_1_alg».proof.Proof.Gen.Kernel.Frame
import proofs.«155800_j46308337386171_1_alg».proof.Proof.Gen.KernelIdeal
import proofs.«155800_j46308337386171_1_alg».proof.Proof.Gen.KernelIdeal.Skeleton
import proofs.«155800_j46308337386171_1_alg».proof.Proof.Gen.KernelIdeal.Launch
import proofs.«155800_j46308337386171_1_alg».proof.Proof.Gen.KernelIdeal.Points
import proofs.«155800_j46308337386171_1_alg».proof.Proof.Gen.KernelIdeal.Frame
import proofs.«155800_j46308337386171_1_alg».proof.Proof.Gen.ReferenceIdeal
import proofs.«155800_j46308337386171_1_alg».proof.Proof.Gen.Pre_finite_inputs
import proofs.«155800_j46308337386171_1_alg».proof.Proof.KernelRun
import proofs.«155800_j46308337386171_1_alg».proof.Proof.KernelValue
import proofs.«155800_j46308337386171_1_alg».proof.Proof.ReferenceRun
import proofs.«155800_j46308337386171_1_alg».proof.Proof.ReferenceValue
import Idealize.ShloMosaic.Adequacy
import Idealize.ShloMosaic.Init

noncomputable section

namespace Cert.Proof

open Idealize.ShloMosaic Idealize.ShloMosaic.TcCoe Idealize.SL.Sem Cert.GraphConv

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the network's output on the (agreeing) arguments. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
